-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S200x10000 : Shape := ⟨2, ![200, 10000]⟩
abbrev S400x256 : Shape := ⟨2, ![400, 256]⟩
abbrev S200x256 : Shape := ⟨2, ![200, 256]⟩

abbrev nBuf : Space → Nat
  | .hbm => 6
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x256, .f32⟩
  | .local _ .vmem, ⟨5, _⟩ => ⟨S256x256, .f32⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x256.size a ≤ S10000x256.size a
  hwx0_5 : ∀ i : grid0.Coords, EltTy.bits .f32 = 32 ∨ (Rect.block (s := S10000x256) S400x256.size (cc0_transform_5 i) (hinb0_5 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibSharedFrame.lean ====
/-
  A general lemma about pipelined kernels whose windows may SHARE an array (one array handed to the kernel
  through several input windows, each reading its own blocks of it).

  The frame run of such a kernel, for a body that uses no semaphore of its own and may carry something in its
  scratch buffers from one grid point to the next: every weakly fair execution of the program terminates,
  nothing faults, every windowed array ends at what the proof data compute for it (an input its entry
  contents, an output those overwritten block by block by what the body left at each write-back), and every
  other unscoped buffer ends as it was when the region was entered.

  What the caller supplies beyond the layout facts: the proof data and its body obligation; the program's
  shape up to the region; how the buffers behind the arrays, each held whole, are dealt to the windows at the
  shares the proof data name (two input windows on one array hold half of it each); and that the kernel's
  scratch buffers at arbitrary contents give the invariant before the first point and are given back, at
  arbitrary contents, after the last.
-/
import Idealize.ShloMosaic.Lib.Pipeline.Frame

noncomputable section

namespace Idealize.ShloMosaic.Pipeline.SharedFrame

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a pipelined kernel whose windows may share arrays, with an invariant the caller states
    point by point over the kernel's scratch buffers (`hin`: the scratch at anything gives it before the first
    point; `hout`: after the last point it gives the scratch back at anything). `hsplit` deals the buffers
    behind the arrays to the windows at the proof data's shares. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedFrame

end
-- ==== Proof.FrameRunsK.lean ====
/-
  What the two runs of the kernel body share. The body has one branch, on "is this the first grid point": at
  the first point it computes the feature product x·W into its scratch buffer, and at every point it multiplies
  two consecutive 200-row slabs of the adjacency matrix by that scratch, adds the bias row and clamps at zero,
  writing rows 0–199 and 200–399 of its 400-row output block. Stated here: the arrays as the region finds them
  (the bias reshaped to one row by the one host operation before the region, the four arguments as launched),
  each window's block read off those arrays, the branch condition in closed form over the 25 grid points, the
  staging and scratch buffers as the body is called with them, and the kernel's scratch as the one buffer the
  region keeps for it.
-/
import proofs.«176682_g12412455485612_cont_sun_m_998_20_alg».proof.Proof.Gen.Kernel.Launch
import proofs.«176682_g12412455485612_cont_sun_m_998_20_alg».proof.Proof.Gen.Kernel.Skeleton
import proofs.«176682_g12412455485612_cont_sun_m_998_20_alg».proof.Proof.Gen.Kernel.Points
import proofs.«176682_g12412455485612_cont_sun_m_998_20_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: after the one host operation, the reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, whether the pipeline fetched it there or
    not (where it was not fetched its block index did not move). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinate: "this is point 0". -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle: the body reads every input and stores the whole output block at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

/-- One staging buffer of the output window, through which its contents are stated (the choice does not matter). -/
abbrev VO0_5 : View sig .tc .vmem S400x256 .f32 := (Memref.whole cc0_stg5_0 : Memref sig .tc .vmem S400x256 .f32).view
/-- Each window's current staging buffer at point `t`, as the pipeline passes it, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x256 .f32 := win0_5.stage (cfg0.slots t 5)
abbrev hs0_5 (t : Fin cfg0.N) : (ms0_5 t).IsWhole := hstage0_5 ((cfg0.slots t 5).cast nbuf0_5)
/-- The scratch operand: the whole scoped buffer in which the body keeps x·W from the first point on. -/
abbrev scM0_0 : Memref sig .tc .vmem S10000x256 .f32 := Memref.whole cc0_scratch0
abbrev VS0_0 : View sig .tc .vmem S10000x256 .f32 := scM0_0.view

/-- The core's scoped buffers that are no staging buffer are the one scratch buffer, owned at some contents. -/
theorem scopedRest0_owns (c : Dev nD) :
    (Pipeline.scopedRest (Ix := Unit) (Name := ℕ) (U := UR sig nD τ) (Lvl := ℕ) (Val := Elt F) spec0 c : sProp (MT nD τ sig Unit (Elt F) ℕ (UR sig nD τ) ℕ))
      = iprop((∃ d, owns (c : Thread nD τ) scM0_0 fullShare d)) := by
  rw [scopedRest0_eq]; simp only [scM0_0, owns_whole]; try rfl

end Cert.Kernel.Fr

end
-- ==== Proof.FrameRunAK.lean ====
/-
  The body at the FIRST grid point, run whole: on whole staging buffers holding the five input blocks, the output
  buffer and the scratch at anything, it runs to the end leaving the inputs as they were, the scratch with one
  piece written over all of it (the product of the x block and the W block) and the output buffer with two pieces
  written, rows 0–199 and rows 200–399 (each slab of the adjacency times what the scratch now holds, plus the bias
  row, clamped at zero). The pieces are found by running the body, not transcribed.
-/
import proofs.«176682_g12412455485612_cont_sun_m_998_20_alg».proof.Proof.FrameRunsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave at the first point, as pieces (last first), with the proof that it runs. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) :
    Σ' (L5 : List (View.Piece (Elt F) S400x256 .f32)), { LS0 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.FrameRunBK.lean ====
/-
  The body at every LATER grid point, run whole: the scratch holds what the point before left and is only read;
  the output buffer gets its two pieces, rows 0–199 and rows 200–399, each slab of the adjacency times the
  scratch's contents, plus the bias row, clamped at zero. Everything else is handed back as found.
-/
import proofs.«176682_g12412455485612_cont_sun_m_998_20_alg».proof.Proof.FrameRunAK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave at a later point, as pieces (last first), with the proof that it runs. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) :
    { L5 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs0) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.Kernel.Fr

end
-- ==== Proof.FrameDataK.lean ====
/-
  The proof data of the kernel's one pipeline, the body obligation, and the frame run.

  What each staging buffer holds after the body at each of the 25 grid points: an input its block (the body
  only reads it); the output the two row slabs the body stored, which cover its 400 rows. The body keeps x·W in
  its scratch buffer from the first point on and never stores into it again, so the region invariant is: before
  the first point the scratch holds anything, before every later point it holds what the first point stored.
  The adjacency matrix is read through two windows (even and odd 200-row slabs); the two windows hold half of
  the array each, which is all a reader needs.
-/
import proofs.«176682_g12412455485612_cont_sun_m_998_20_alg».proof.Proof.FrameRunBK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's two output pieces tile the 400-row block. -/
theorem cover0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) (y : S400x256.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S200x256.size (by sl_kernel_rfl) y

/-- What the first point leaves in the output's staging buffer: its pieces read back. -/
def out0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) : Vec F S400x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The first point's one scratch piece covers the scratch. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) (y : S10000x256.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x256.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) : Vec F S10000x256 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- A later point's two output pieces tile the 400-row block. -/
theorem cover0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) (y : S400x256.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S200x256.size (by sl_kernel_rfl) y

/-- What a later point leaves in the output's staging buffer: its pieces read back. -/
def out0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) : Vec F S400x256 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-! ## Point by point -/

/-- The first grid point. -/
def t0 : Fin cfg0.N := ⟨0, by rw [show cfg0.N = 25 from N_0]; decide⟩

/-- What the scratch holds from the first point on: what the first point stored. -/
def sc (c : Dev nD) : Vec F S10000x256 .f32 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr (Nat.zero_mod _)) (iblk m c 0 t0) (iblk m c 1 t0) (iblk m c 2 t0) (iblk m c 3 t0) (iblk m c 4 t0)

/-- What the output's staging buffer holds after the body at point `t`. -/
def outAt0 (c : Dev nD) (t : Fin cfg0.N) : Vec F S400x256 .f32 :=
  if h0 : t.val % 25 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c)

theorem outAt0_A (c : Dev nD) (t : Fin cfg0.N) (h0 : t.val % 25 = 0) :
    outAt0 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) := by
  unfold outAt0; exact dif_pos h0

theorem outAt0_B (c : Dev nD) (t : Fin cfg0.N) (h0 : ¬t.val % 25 = 0) :
    outAt0 m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c) := by
  unfold outAt0; exact dif_neg h0

/-- The region invariant before position `n`: before the first point the kernel's scratch at anything; afterwards
    the scratch at what the first point stored. -/
def PhiS (c : Dev nD) : (n : ℕ) → sProp 𝕄
  | 0 => Pipeline.scopedRest spec0 c
  | _ + 1 => owns (c : Thread nD τ) scM0_0 fullShare (sc m c)

theorem PhiS_zero (c : Dev nD) (n : ℕ) (hz : n = 0) : PhiS m c n = Pipeline.scopedRest spec0 c := by
  subst hz; rfl

theorem PhiS_succ (c : Dev nD) (n : ℕ) : PhiS m c (n + 1) = owns (c : Thread nD τ) scM0_0 fullShare (sc m c) := rfl

theorem PhiS_pos (c : Dev nD) (n : ℕ) (hz : n ≠ 0) : PhiS m c n = owns (c : Thread nD τ) scM0_0 fullShare (sc m c) := by
  cases n with
  | zero => exact absurd rfl hz
  | succ n => rfl

/-! ## The proof data -/

/-- The proof data of the one pipeline on core `c`: the arrays as the region finds them; after the body at
    point `t` each input's buffer at its block and the output's at `outAt0`; the invariant `PhiS`; nothing owed;
    the adjacency array held half by each of its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0 m c t
  Φ t := PhiS m c t.val
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Into and out of the region -/

/-- The scratch at anything is the invariant before the first point. -/
theorem hin (c : Dev nD) : (Pipeline.scopedRest spec0 c : sProp 𝕄) ⊢ (dats m 0 c).Φ 0 := by
  rw [show (dats m 0 c).Φ 0 = PhiS m c 0 from rfl, PhiS_zero m c 0 rfl]
  try exact Idealize.SL.BI.Entails.refl _

/-- After the last point the invariant gives the scratch back, its contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest0_owns]
  iintro HS0
  iexists _; iexact HS0

end Cert.Kernel.Fr

end
-- ==== Proof.FrameBodyK.lean ====
/-
  The body obligation of the kernel's pipeline: at every grid point, the body called on the staging buffers the
  pipeline hands it runs to the end and leaves what the proof data say — at the first point by the run that
  fills the scratch, at every later point by the run that only reads it.
-/
import proofs.«176682_g12412455485612_cont_sun_m_998_20_alg».proof.Proof.FrameDataK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; at the first point the scratch holds anything
    and the run of that point applies, leaving the scratch at what it stored; at a later point the scratch holds
    what the first point stored and the run of the later points applies, leaving it so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 25 := lt_of_lt_of_eq t.isLt (show cfg0.N = 25 from N_0)
  by_cases h0 : t.val % 25 = 0
  · have hz : t.val = 0 := by omega
    have ht : t = t0 := Fin.ext hz
    rw [outAt0_A m c t h0]
    unfold out0_A_5
    rw [PhiS_castSucc m c t, PhiS_zero m c _ hz, scopedRest0_owns]
    subst ht
    unfold sc sout0_A_0
    iintro ⟨HS0, Ho, ⟨%d0, H0⟩, ⟨%d1, H1⟩, ⟨%d2, H2⟩, ⟨%d3, H3⟩, ⟨%d4, H4⟩, ⟨%d5, H5⟩⟩
    iapply ((kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0))
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0))
  · have hz : t.val ≠ 0 := fun h => h0 (by rw [h])
    rw [outAt0_B m c t h0]
    unfold out0_B_5
    rw [PhiS_castSucc m c t, PhiS_pos m c _ hz]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrameMainK.lean ====
/-
  The frame run of the kernel's program and its frame: the program runs to the end without a fault, its four
  argument arrays end as launched, and the result array ends at what the proof data compute for it.

  The adjacency matrix is handed to the kernel through two input windows. The launch holds the array whole; a
  whole array splits into its left and right halves of the share, one for each window, both at the same
  contents; every other array goes to its one window whole.
-/
import proofs.«176682_g12412455485612_cont_sun_m_998_20_alg».proof.Proof.FrameBodyK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five distinct buffers behind the six windows' arrays, each whole, make the windows' arrays at the proof
    data's shares: the adjacency array split in two halves for its two windows. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1)) := by
    unfold Pipeline.arrBufs
    exact bigSep_eq_bigSepL_of_eq [main_arg1, main_arg0, main_arg2, main_v0, main_v1] (by decide) (by decide) _
  rw [e]
  unfold Dat.arrays
  rw [bigSep_W0]
  iintro ⟨H1, H0, H2, Hv0, Hv1⟩
  ihave H1' := (pointsTo_share (PosShare.mem_left_op_right fullShare)).1 $$ H1
  icases H1' with ⟨H1l, H1r⟩
  isplitl [H1l]
  · rw [(arr_whole0 0).set_eq_univ]; iexact H1l
  isplitl [H1r]
  · rw [(arr_whole0 1).set_eq_univ]; iexact H1r
  isplitl [H0]
  · rw [(arr_whole0 2).set_eq_univ]; iexact H0
  isplitl [H2]
  · rw [(arr_whole0 3).set_eq_univ]; iexact H2
  isplitl [Hv0]
  · rw [(arr_whole0 4).set_eq_univ]; iexact Hv0
  rw [(arr_whole0 5).set_eq_univ]; iexact Hv1

set_option backward.isDefEq.respectTransparency.types false in
/-- Every weakly fair execution of the program terminates, and every final state has every windowed array at
    what the proof data compute and every other unscoped buffer as the region found it. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame: the four argument arrays end as launched (three are inputs' arrays, which the pipeline never
    writes; the bias is no window's array and bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.Kernel.Fr

end
-- ==== Proof.FrameRuns.lean ====
/-
  What the two runs of the kernel body share. The body has one branch, on "is this the first grid point": at
  the first point it computes the feature product x·W into its scratch buffer, and at every point it multiplies
  two consecutive 200-row slabs of the adjacency matrix by that scratch, adds the bias row and clamps at zero,
  writing rows 0–199 and 200–399 of its 400-row output block. Stated here: the arrays as the region finds them
  (the bias reshaped to one row by the one host operation before the region, the four arguments as launched),
  each window's block read off those arrays, the branch condition in closed form over the 25 grid points, the
  staging and scratch buffers as the body is called with them, and the kernel's scratch as the one buffer the
  region keeps for it.
-/
import proofs.«176682_g12412455485612_cont_sun_m_998_20_alg».proof.Proof.Gen.KernelIdeal.Launch
import proofs.«176682_g12412455485612_cont_sun_m_998_20_alg».proof.Proof.Gen.KernelIdeal.Skeleton
import proofs.«176682_g12412455485612_cont_sun_m_998_20_alg».proof.Proof.Gen.KernelIdeal.Points
import proofs.«176682_g12412455485612_cont_sun_m_998_20_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: after the one host operation, the reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, whether the pipeline fetched it there or
    not (where it was not fetched its block index did not move). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinate: "this is point 0". -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle: the body reads every input and stores the whole output block at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

/-- One staging buffer of the output window, through which its contents are stated (the choice does not matter). -/
abbrev VO0_5 : View sig .tc .vmem S400x256 .f32 := (Memref.whole cc0_stg5_0 : Memref sig .tc .vmem S400x256 .f32).view
/-- Each window's current staging buffer at point `t`, as the pipeline passes it, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x256 .f32 := win0_5.stage (cfg0.slots t 5)
abbrev hs0_5 (t : Fin cfg0.N) : (ms0_5 t).IsWhole := hstage0_5 ((cfg0.slots t 5).cast nbuf0_5)
/-- The scratch operand: the whole scoped buffer in which the body keeps x·W from the first point on. -/
abbrev scM0_0 : Memref sig .tc .vmem S10000x256 .f32 := Memref.whole cc0_scratch0
abbrev VS0_0 : View sig .tc .vmem S10000x256 .f32 := scM0_0.view

/-- The core's scoped buffers that are no staging buffer are the one scratch buffer, owned at some contents. -/
theorem scopedRest0_owns (c : Dev nD) :
    (Pipeline.scopedRest (Ix := Unit) (Name := ℕ) (U := UR sig nD τ) (Lvl := ℕ) (Val := Elt F) spec0 c : sProp (MT nD τ sig Unit (Elt F) ℕ (UR sig nD τ) ℕ))
      = iprop((∃ d, owns (c : Thread nD τ) scM0_0 fullShare d)) := by
  rw [scopedRest0_eq]; simp only [scM0_0, owns_whole]; try rfl

end Cert.KernelIdeal.Fr

end
-- ==== Proof.FrameRunA.lean ====
/-
  The body at the FIRST grid point, run whole: on whole staging buffers holding the five input blocks, the output
  buffer and the scratch at anything, it runs to the end leaving the inputs as they were, the scratch with one
  piece written over all of it (the product of the x block and the W block) and the output buffer with two pieces
  written, rows 0–199 and rows 200–399 (each slab of the adjacency times what the scratch now holds, plus the bias
  row, clamped at zero). The pieces are found by running the body, not transcribed.
-/
import proofs.«176682_g12412455485612_cont_sun_m_998_20_alg».proof.Proof.FrameRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave at the first point, as pieces (last first), with the proof that it runs. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) :
    Σ' (L5 : List (View.Piece (Elt F) S400x256 .f32)), { LS0 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.FrameRunB.lean ====
/-
  The body at every LATER grid point, run whole: the scratch holds what the point before left and is only read;
  the output buffer gets its two pieces, rows 0–199 and rows 200–399, each slab of the adjacency times the
  scratch's contents, plus the bias row, clamped at zero. Everything else is handed back as found.
-/
import proofs.«176682_g12412455485612_cont_sun_m_998_20_alg».proof.Proof.FrameRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave at a later point, as pieces (last first), with the proof that it runs. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) :
    { L5 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs0) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.KernelIdeal.Fr

end
-- ==== Proof.FrameData.lean ====
/-
  The proof data of the kernel's one pipeline, the body obligation, and the frame run.

  What each staging buffer holds after the body at each of the 25 grid points: an input its block (the body
  only reads it); the output the two row slabs the body stored, which cover its 400 rows. The body keeps x·W in
  its scratch buffer from the first point on and never stores into it again, so the region invariant is: before
  the first point the scratch holds anything, before every later point it holds what the first point stored.
  The adjacency matrix is read through two windows (even and odd 200-row slabs); the two windows hold half of
  the array each, which is all a reader needs.
-/
import proofs.«176682_g12412455485612_cont_sun_m_998_20_alg».proof.Proof.FrameRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's two output pieces tile the 400-row block. -/
theorem cover0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) (y : S400x256.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S200x256.size (by sl_kernel_rfl) y

/-- What the first point leaves in the output's staging buffer: its pieces read back. -/
def out0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) : Vec F S400x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The first point's one scratch piece covers the scratch. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) (y : S10000x256.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x256.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i)
    (x0 : Vec F S200x10000 .f32) (x1 : Vec F S200x10000 .f32) (x2 : Vec F S10000x256 .f32) (x3 : Vec F S256x256 .f32) (x4 : Vec F S1x256 .f32) : Vec F S10000x256 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- A later point's two output pieces tile the 400-row block. -/
theorem cover0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) (y : S400x256.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S200x256.size (by sl_kernel_rfl) y

/-- What a later point leaves in the output's staging buffer: its pieces read back. -/
def out0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i)
    (x0 : Vec F S200x10000 .f32) (x1 : Vec F S200x10000 .f32) (x2 : Vec F S10000x256 .f32) (x3 : Vec F S256x256 .f32) (x4 : Vec F S1x256 .f32) (xs0 : Vec F S10000x256 .f32) : Vec F S400x256 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-! ## Point by point -/

/-- The first grid point. -/
def t0 : Fin cfg0.N := ⟨0, by rw [show cfg0.N = 25 from N_0]; decide⟩

/-- What the scratch holds from the first point on: what the first point stored. -/
def sc (c : Dev nD) : Vec F S10000x256 .f32 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr (Nat.zero_mod _)) (iblk m c 0 t0) (iblk m c 1 t0) (iblk m c 2 t0) (iblk m c 3 t0) (iblk m c 4 t0)

/-- What the output's staging buffer holds after the body at point `t`. -/
def outAt0 (c : Dev nD) (t : Fin cfg0.N) : Vec F S400x256 .f32 :=
  if h0 : t.val % 25 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c)

theorem outAt0_A (c : Dev nD) (t : Fin cfg0.N) (h0 : t.val % 25 = 0) :
    outAt0 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) := by
  unfold outAt0; exact dif_pos h0

theorem outAt0_B (c : Dev nD) (t : Fin cfg0.N) (h0 : ¬t.val % 25 = 0) :
    outAt0 m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c) := by
  unfold outAt0; exact dif_neg h0

/-- The region invariant before position `n`: before the first point the kernel's scratch at anything; afterwards
    the scratch at what the first point stored. -/
def PhiS (c : Dev nD) : (n : ℕ) → sProp 𝕄
  | 0 => Pipeline.scopedRest spec0 c
  | _ + 1 => owns (c : Thread nD τ) scM0_0 fullShare (sc m c)

theorem PhiS_zero (c : Dev nD) (n : ℕ) (hz : n = 0) : PhiS m c n = Pipeline.scopedRest spec0 c := by
  subst hz; rfl

theorem PhiS_succ (c : Dev nD) (n : ℕ) : PhiS m c (n + 1) = owns (c : Thread nD τ) scM0_0 fullShare (sc m c) := rfl

theorem PhiS_pos (c : Dev nD) (n : ℕ) (hz : n ≠ 0) : PhiS m c n = owns (c : Thread nD τ) scM0_0 fullShare (sc m c) := by
  cases n with
  | zero => exact absurd rfl hz
  | succ n => rfl

/-! ## The proof data -/

/-- The proof data of the one pipeline on core `c`: the arrays as the region finds them; after the body at
    point `t` each input's buffer at its block and the output's at `outAt0`; the invariant `PhiS`; nothing owed;
    the adjacency array held half by each of its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0 m c t
  Φ t := PhiS m c t.val
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Into and out of the region -/

/-- The scratch at anything is the invariant before the first point. -/
theorem hin (c : Dev nD) : (Pipeline.scopedRest spec0 c : sProp 𝕄) ⊢ (dats m 0 c).Φ 0 := by
  rw [show (dats m 0 c).Φ 0 = PhiS m c 0 from rfl, PhiS_zero m c 0 rfl]
  try exact Idealize.SL.BI.Entails.refl _

/-- After the last point the invariant gives the scratch back, its contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest0_owns]
  iintro HS0
  iexists _; iexact HS0

end Cert.KernelIdeal.Fr

end
-- ==== Proof.FrameBody.lean ====
/-
  The body obligation of the kernel's pipeline: at every grid point, the body called on the staging buffers the
  pipeline hands it runs to the end and leaves what the proof data say — at the first point by the run that
  fills the scratch, at every later point by the run that only reads it.
-/
import proofs.«176682_g12412455485612_cont_sun_m_998_20_alg».proof.Proof.FrameData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; at the first point the scratch holds anything
    and the run of that point applies, leaving the scratch at what it stored; at a later point the scratch holds
    what the first point stored and the run of the later points applies, leaving it so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 25 := lt_of_lt_of_eq t.isLt (show cfg0.N = 25 from N_0)
  by_cases h0 : t.val % 25 = 0
  · have hz : t.val = 0 := by omega
    have ht : t = t0 := Fin.ext hz
    rw [outAt0_A m c t h0]
    unfold out0_A_5
    rw [PhiS_castSucc m c t, PhiS_zero m c _ hz, scopedRest0_owns]
    subst ht
    unfold sc sout0_A_0
    iintro ⟨HS0, Ho, ⟨%d0, H0⟩, ⟨%d1, H1⟩, ⟨%d2, H2⟩, ⟨%d3, H3⟩, ⟨%d4, H4⟩, ⟨%d5, H5⟩⟩
    iapply ((kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0))
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0))
  · have hz : t.val ≠ 0 := fun h => h0 (by rw [h])
    rw [outAt0_B m c t h0]
    unfold out0_B_5
    rw [PhiS_castSucc m c t, PhiS_pos m c _ hz]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (sc m c))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameMain.lean ====
/-
  The frame run of the kernel's program and its frame: the program runs to the end without a fault, its four
  argument arrays end as launched, and the result array ends at what the proof data compute for it.

  The adjacency matrix is handed to the kernel through two input windows. The launch holds the array whole; a
  whole array splits into its left and right halves of the share, one for each window, both at the same
  contents; every other array goes to its one window whole.
-/
import proofs.«176682_g12412455485612_cont_sun_m_998_20_alg».proof.Proof.FrameBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five distinct buffers behind the six windows' arrays, each whole, make the windows' arrays at the proof
    data's shares: the adjacency array split in two halves for its two windows. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1)) := by
    unfold Pipeline.arrBufs
    exact bigSep_eq_bigSepL_of_eq [main_arg1, main_arg0, main_arg2, main_v0, main_v1] (by decide) (by decide) _
  rw [e]
  unfold Dat.arrays
  rw [bigSep_W0]
  iintro ⟨H1, H0, H2, Hv0, Hv1⟩
  ihave H1' := (pointsTo_share (PosShare.mem_left_op_right fullShare)).1 $$ H1
  icases H1' with ⟨H1l, H1r⟩
  isplitl [H1l]
  · rw [(arr_whole0 0).set_eq_univ]; iexact H1l
  isplitl [H1r]
  · rw [(arr_whole0 1).set_eq_univ]; iexact H1r
  isplitl [H0]
  · rw [(arr_whole0 2).set_eq_univ]; iexact H0
  isplitl [H2]
  · rw [(arr_whole0 3).set_eq_univ]; iexact H2
  isplitl [Hv0]
  · rw [(arr_whole0 4).set_eq_univ]; iexact Hv0
  rw [(arr_whole0 5).set_eq_univ]; iexact Hv1

set_option backward.isDefEq.respectTransparency.types false in
/-- Every weakly fair execution of the program terminates, and every final state has every windowed array at
    what the proof data compute and every other unscoped buffer as the region found it. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame: the four argument arrays end as launched (three are inputs' arrays, which the pipeline never
    writes; the bias is no window's array and bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.Fr

end
-- ==== Proof.GcnReshape.lean ====
/-
  The bias as a one-row matrix.  Recasting a vector of 256 entries as a 1 × 256 matrix keeps the entries in
  row-major order, so entry (0, c) of the matrix is entry c of the vector.
-/
import proofs.«176682_g12412455485612_cont_sun_m_998_20_alg».proof.Proof.Gen.KernelIdeal
import Idealize.ShloMosaic.Lib.Pipeline.Value
import Idealize.ShloMosaic.Lib.ValueIdx
import Idealize.ShloMosaic.Lib.ValueLayout

noncomputable section

namespace Cert.KernelIdeal.GcnReshape

open Cert.KernelIdeal Idealize.ShloMosaic Idealize.ShloMosaic.ValueIdx

variable {F : FTy → Type} [FloatOps F]

/-- Entry (0, c) of the bias recast as a 1 × 256 matrix is entry c of the bias, whatever the evidence that the
    two shapes hold the same number of entries. -/
theorem reshape_bias_apply (b : Vec F S256 .f32) (h : S256.ShapeCasts S1x256) (c : Fin 256) :
    shapeCast S1x256 b h (ix2 (0 : Fin 1) c) = b (ix1 c) :=
  shapeCast_a_1a_apply b h (0 : Fin 1) c

/-- The same with the recast written as the host operation writes it: through the (trivial) identification of
    the two element types. -/
theorem reshape_bias_apply' (b : Vec F S256 .f32) (h : S256.ShapeCasts S1x256) (c : Fin 256) :
    ((rfl : EltTy.f32 = EltTy.f32) ▸ shapeCast S1x256 b h (ix2 (0 : Fin 1) c) : Elt F .f32) = b (ix1 c) :=
  shapeCast_a_1a_apply b h (0 : Fin 1) c

end Cert.KernelIdeal.GcnReshape

end
-- ==== Proof.GcnBlocks.lean ====
/-
  The windows' blocks as entries of the argument arrays.  The grid has 25 points.  At point t the two adjacency
  windows hold rows 400·t … 400·t + 199 and 400·t + 200 … 400·t + 399 of the adjacency matrix (block indices
  2·t and 2·t + 1 of 200-row blocks); the feature, weight and bias windows hold their whole arrays, the bias as the
  one-row matrix the host's recast made of it; and the output window's block is rows 400·t … 400·t + 399 of the
  result.  An entry of a block sits in its array, on each axis, at block index × block size + its own coordinate.
  The 25 output blocks cover the result: row r lies in the block of point r / 400.
-/
import proofs.«176682_g12412455485612_cont_sun_m_998_20_alg».proof.Proof.FrameRuns
import proofs.«176682_g12412455485612_cont_sun_m_998_20_alg».proof.Proof.GcnReshape
import Idealize.ShloMosaic.Lib.Pipeline.Value
import Idealize.ShloMosaic.Lib.ValueIdx
import Idealize.ShloMosaic.Lib.StableHlo.Run

noncomputable section

namespace Cert.KernelIdeal.FrBlk

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F]

variable (m : (ℓ : Loc nD τ sig) → Buf (Elt F) ℓ)

/-! ## The index maps over the grid -/

/-- The block index of every window at every grid point: the adjacency windows at 2·t and 2·t + 1 down the rows,
    the output window at t, every other coordinate zero. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is below 25. -/
theorem t_lt (t : Fin cfg0.N) : t.val < 25 := by
  have h : cfg0.N = 25 := N_0
  have := t.isLt
  omega

/-- The output window writes its block back at every point: its block index moves at every step. -/
theorem flush5 : ∀ t : Fin cfg0.N, (cfg0.win 5).flush t = true :=
  (by decide +kernel : ∀ t : Fin grid0.N, _)

/-! ## The input windows' blocks -/

/-- The first adjacency window at point t: row r of its block is row 400·t + r of the adjacency matrix. -/
theorem iblk0_apply (c : Dev nD) (t : Fin cfg0.N) (r : Fin 200) (k : Fin 10000) :
    (iblk m c 0 t : Vec F S200x10000 .f32) (ix2 r k)
      = (m ((c : Thread nD τ).loc main_arg1) : S10000x10000.Idx → Elt F .f32)
          (ix2 (⟨2 * t.val * 200 + r.val, by have := t_lt t; have := r.isLt; omega⟩ : Fin 10000) k) := by
  obtain ⟨e0, e1, -⟩ := idx_facts t
  unfold iblk
  rw [View.read_apply]
  show V m c main_arg1 _ = _
  rw [V_main_arg1]
  congr 1
  funext a
  apply Fin.ext
  match a with
  | ⟨0, _⟩ => show win0_0.index t (0 : Fin 2) * 200 + 1 * r.val = 2 * t.val * 200 + r.val; omega
  | ⟨1, _⟩ => show win0_0.index t (1 : Fin 2) * 10000 + 1 * k.val = k.val; omega

/-- The second adjacency window at point t: row r of its block is row 400·t + 200 + r of the adjacency matrix. -/
theorem iblk1_apply (c : Dev nD) (t : Fin cfg0.N) (r : Fin 200) (k : Fin 10000) :
    (iblk m c 1 t : Vec F S200x10000 .f32) (ix2 r k)
      = (m ((c : Thread nD τ).loc main_arg1) : S10000x10000.Idx → Elt F .f32)
          (ix2 (⟨(2 * t.val + 1) * 200 + r.val, by have := t_lt t; have := r.isLt; omega⟩ : Fin 10000) k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 200 + 1 * r.val = (2 * t.val + 1) * 200 + r.val; omega
  | ⟨1, _⟩ => show win0_1.index t (1 : Fin 2) * 10000 + 1 * k.val = k.val; omega

/-- The feature window's block is the feature matrix, at every point. -/
theorem iblk2_apply (c : Dev nD) (t : Fin cfg0.N) (r : Fin 10000) (j : Fin 256) :
    (iblk m c 2 t : Vec F S10000x256 .f32) (ix2 r j)
      = (m ((c : Thread nD τ).loc main_arg0) : S10000x256.Idx → Elt F .f32) (ix2 r j) := by
  obtain ⟨-, -, -, -, e0, e1, -⟩ := idx_facts t
  unfold iblk
  rw [View.read_apply]
  show V m c main_arg0 _ = _
  rw [V_main_arg0]
  congr 1
  funext a
  apply Fin.ext
  match a with
  | ⟨0, _⟩ => show win0_2.index t (0 : Fin 2) * 10000 + 1 * r.val = r.val; omega
  | ⟨1, _⟩ => show win0_2.index t (1 : Fin 2) * 256 + 1 * j.val = j.val; omega

/-- The weight window's block is the weight matrix, at every point. -/
theorem iblk3_apply (c : Dev nD) (t : Fin cfg0.N) (j : Fin 256) (cc : Fin 256) :
    (iblk m c 3 t : Vec F S256x256 .f32) (ix2 j cc)
      = (m ((c : Thread nD τ).loc main_arg2) : S256x256.Idx → Elt F .f32) (ix2 j cc) := by
  obtain ⟨-, -, -, -, -, -, e0, e1, -⟩ := idx_facts t
  unfold iblk
  rw [View.read_apply]
  show V m c main_arg2 _ = _
  rw [V_main_arg2]
  congr 1
  funext a
  apply Fin.ext
  match a with
  | ⟨0, _⟩ => show win0_3.index t (0 : Fin 2) * 256 + 1 * j.val = j.val; omega
  | ⟨1, _⟩ => show win0_3.index t (1 : Fin 2) * 256 + 1 * cc.val = cc.val; omega

/-- What the region finds in the bias window's array: the bias as launched, recast as a one-row matrix by the
    host operation before the region. -/
theorem V_main_v0 (c : Dev nD) :
    (V m c main_v0 : S1x256.Idx → Elt F .f32)
      = shapeCast S1x256 (m ((c : Thread nD τ).loc main_arg3) : S256.Idx → Elt F .f32) shapeCasts_S256_S1x256 := by
  dsimp only [V, hostOps0]
  after_results
  rfl

/-- The bias window's block is that one-row matrix: its entry (0, cc) is entry cc of the bias as launched. -/
theorem iblk4_apply (c : Dev nD) (t : Fin cfg0.N) (cc : Fin 256) :
    (iblk m c 4 t : Vec F S1x256 .f32) (ix2 (0 : Fin 1) cc)
      = (m ((c : Thread nD τ).loc main_arg3) : S256.Idx → Elt F .f32) (ix1 cc) := by
  obtain ⟨-, -, -, -, -, -, -, -, e0, e1, -⟩ := idx_facts t
  unfold iblk
  rw [View.read_apply]
  show (V m c main_v0 : S1x256.Idx → Elt F .f32) _ = _
  rw [V_main_v0]
  refine Eq.trans (congrArg _ ?_) (GcnReshape.reshape_bias_apply _ shapeCasts_S256_S1x256 cc)
  funext a
  apply Fin.ext
  match a with
  | ⟨0, _⟩ => show win0_4.index t (0 : Fin 2) * 1 + 1 * 0 = 0; omega
  | ⟨1, _⟩ => show win0_4.index t (1 : Fin 2) * 256 + 1 * cc.val = cc.val; omega

/-! ## The output window: its block read off a whole-array function, and the cover -/

/-- Row y0 of the output block at point t is row 400·t + y0 of the array. -/
theorem oblk5_apply (t : Fin cfg0.N) (g : S10000x256.Idx → Elt F .f32) (y0 : Fin 400) (y1 : Fin 256) :
    (((cfg0.win 5).blk t).view.read (Elt F) g : Vec F S400x256 .f32) (ix2 y0 y1)
      = g (ix2 (⟨t.val * 400 + y0.val, by have := t_lt t; have := y0.isLt; omega⟩ : Fin 10000) y1) := by
  obtain ⟨-, -, -, -, -, -, -, -, -, -, e0, e1⟩ := idx_facts t
  rw [View.read_apply]
  show g _ = _
  congr 1
  funext a
  apply Fin.ext
  match a with
  | ⟨0, _⟩ => show win0_5.index t (0 : Fin 2) * 400 + 1 * y0.val = t.val * 400 + y0.val; omega
  | ⟨1, _⟩ => show win0_5.index t (1 : Fin 2) * 256 + 1 * y1.val = y1.val; omega

/-- An index of the result lies in point t's output block iff each coordinate is in the block's range on its axis. -/
theorem mem_blk5 (t : Fin cfg0.N) (i : S10000x256.Idx) :
    i ∈ ((cfg0.win 5).blk t).view.set
      ↔ ∀ a : Fin 2, win0_5.index t a * S400x256.size a ≤ (i a).val ∧ (i a).val < win0_5.index t a * S400x256.size a + S400x256.size a := by
  show i ∈ ((View.whole main_v1).slice (win0_5.rect t)).set ↔ _
  rw [View.set_slice_whole, Rect.mem_set_unit]
  exact Iff.rfl

/-- Every index of the result lies in the output block of a point that writes back: row r in the block of point
    r / 400. -/
theorem cover5 : ∀ i : S10000x256.Idx,
    ∃ t : Fin cfg0.N, (cfg0.win 5).flush t = true ∧ i ∈ ((cfg0.win 5).blk t).view.set := by
  intro i
  have hi0 : (i 0).val < 10000 := (i 0).isLt
  have hi1 : (i 1).val < 256 := (i 1).isLt
  have hN : cfg0.N = 25 := N_0
  refine ⟨⟨(i 0).val / 400, by omega⟩, flush5 _, ?_⟩
  obtain ⟨-, -, -, -, -, -, -, -, -, -, e0, e1⟩ := idx_facts ⟨(i 0).val / 400, by omega⟩
  rw [mem_blk5]
  intro a
  match a with
  | ⟨0, _⟩ =>
    show win0_5.index ⟨(i 0).val / 400, _⟩ (0 : Fin 2) * 400 ≤ (i 0).val ∧ (i 0).val < win0_5.index ⟨(i 0).val / 400, _⟩ (0 : Fin 2) * 400 + 400
    rw [e0]
    show (i 0).val / 400 * 400 ≤ (i 0).val ∧ (i 0).val < (i 0).val / 400 * 400 + 400
    omega
  | ⟨1, _⟩ =>
    show win0_5.index ⟨(i 0).val / 400, _⟩ (1 : Fin 2) * 256 ≤ (i 1).val ∧ (i 1).val < win0_5.index ⟨(i 0).val / 400, _⟩ (1 : Fin 2) * 256 + 256
    rw [e1]
    omega

/-- The same cover, with the index typed as the array's own index type on core c. -/
theorem cover5' (c : Dev nD) : ∀ i : ((cfg0.win 5).arr.view.loc (c.tc : Thread nD τ)).2.ty.Idx,
    ∃ t : Fin cfg0.N, (cfg0.win 5).flush t = true ∧ i ∈ ((cfg0.win 5).blk t).view.set :=
  fun i => cover5 i

end Cert.KernelIdeal.FrBlk

end
-- ==== Proof.GcnPieces.lean ====
/-
  What the body's stores leave, entry by entry.  At the first grid point the body stores the feature product of
  the feature block and the weight block over the whole scratch, reads it back, and stores two 200-row slabs into
  its 400-row output block: rows 0–199 from the first adjacency block, rows 200–399 from the second, each against
  the feature product and the bias row.  At a later point it stores the same two slabs against what the scratch
  already holds.  A load of a whole buffer reads the buffer's contents; one store over a whole buffer, read back, is
  what was stored; of two stores into disjoint row ranges each range holds its own store.
-/
import proofs.«176682_g12412455485612_cont_sun_m_998_20_alg».proof.Proof.FrameData
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.FrPc

open Cert.KernelIdeal Cert.KernelIdeal.Gen Cert.KernelIdeal.Fr
open Idealize.ShloMosaic Idealize.ShloMosaic.TcCoe Idealize.ShloMosaic.Tactic Idealize.SL.Sem Idealize.ShloMosaic.ValueIdx

variable {F : FTy → Type} [FloatOps F]

theorem hz : (![0, 0] : Fin 2 → Nat) = fun _ => 0 := funext fun a => by fin_cases a <;> rfl

/-! ## Two row slabs stored into a 400-row block, read back at an entry -/

section slabs

variable {Val : EltTy → Type} [∀ e, Nonempty (Val e)] {e : EltTy}

/-- Under the last store, into rows 200–399: entry (200 + r, col) of the block is entry (r, col) of what was stored. -/
theorem canon_rows_hi (h1 : ∀ a, (![200, 0] : Fin 2 → Nat) a + (![200, 256] : Fin 2 → Nat) a ≤ S400x256.size a)
    (w1 : (Rect.unit (s := S400x256) ![200, 0] ![200, 256] h1).shape.Idx → Val e)
    (L : List (View.Piece Val S400x256 e)) (r : Fin 200) (col : Fin 256) :
    View.canon ((⟨Rect.unit (s := S400x256) ![200, 0] ![200, 256] h1, w1⟩ : View.Piece Val S400x256 e) :: L)
        (ix2 (⟨200 + r.val, by have := r.isLt; omega⟩ : Fin 400) col)
      = w1 (ix2 r col) := by
  have e1 : (ix2 (⟨200 + r.val, by have := r.isLt; omega⟩ : Fin 400) col : S400x256.Idx)
      = (Rect.unit (s := S400x256) ![200, 0] ![200, 256] h1).emb (ix2 r col) :=
    funext fun a => Fin.ext (by
      rw [Rect.emb_apply]
      match a with
      | ⟨0, _⟩ => show 200 + r.val = 200 + 1 * r.val; omega
      | ⟨1, _⟩ => show col.val = 0 + 1 * col.val; omega)
  rw [e1]
  exact View.canon_cons_emb _ w1 L (ix2 r col)

/-- Rows 0–199 are not under that last store, so they hold the store before it: entry (r, col) of the block is
    entry (r, col) of what that one stored. -/
theorem canon_rows_lo (h1 : ∀ a, (![200, 0] : Fin 2 → Nat) a + (![200, 256] : Fin 2 → Nat) a ≤ S400x256.size a)
    (w1 : (Rect.unit (s := S400x256) ![200, 0] ![200, 256] h1).shape.Idx → Val e)
    (h0 : ∀ a, (![0, 0] : Fin 2 → Nat) a + (![200, 256] : Fin 2 → Nat) a ≤ S400x256.size a)
    (w0 : (Rect.unit (s := S400x256) ![0, 0] ![200, 256] h0).shape.Idx → Val e)
    (L : List (View.Piece Val S400x256 e)) (r : Fin 200) (col : Fin 256) :
    View.canon ((⟨Rect.unit (s := S400x256) ![200, 0] ![200, 256] h1, w1⟩ : View.Piece Val S400x256 e)
        :: (⟨Rect.unit (s := S400x256) ![0, 0] ![200, 256] h0, w0⟩ : View.Piece Val S400x256 e) :: L)
        (ix2 (⟨r.val, by have := r.isLt; omega⟩ : Fin 400) col)
      = w0 (ix2 r col) := by
  have hnot : (ix2 (⟨r.val, by have := r.isLt; omega⟩ : Fin 400) col : S400x256.Idx)
      ∉ (Rect.unit (s := S400x256) ![200, 0] ![200, 256] h1).set := by
    rw [Rect.mem_set_unit]
    intro h
    have h' : 200 ≤ r.val := (h 0).1
    have := r.isLt
    omega
  have e0 : (ix2 (⟨r.val, by have := r.isLt; omega⟩ : Fin 400) col : S400x256.Idx)
      = (Rect.unit (s := S400x256) ![0, 0] ![200, 256] h0).emb (ix2 r col) :=
    funext fun a => Fin.ext (by
      rw [Rect.emb_apply]
      match a with
      | ⟨0, _⟩ => show r.val = 0 + 1 * r.val; omega
      | ⟨1, _⟩ => show col.val = 0 + 1 * col.val; omega)
  rw [View.canon_cons_of_not_mem (⟨Rect.unit (s := S400x256) ![200, 0] ![200, 256] h1, w1⟩ : View.Piece Val S400x256 e)
    ((⟨Rect.unit (s := S400x256) ![0, 0] ![200, 256] h0, w0⟩ : View.Piece Val S400x256 e) :: L) hnot, e0]
  exact View.canon_cons_emb _ w0 L (ix2 r col)

end slabs

/-! ## What the scratch holds after the first point -/

set_option maxHeartbeats 400000 in
/-- At the first point the scratch is left holding the feature product of the feature block and the weight block. -/
theorem sout_A_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i) (x0 : Vec F S200x10000 .f32) (x1 : Vec F S200x10000 .f32) (x2 : Vec F S10000x256 .f32) (x3 : Vec F S256x256 .f32) (x4 : Vec F S1x256 .f32) :
    sout0_A_0 c i arg1 harg1 arg2 harg2 arg3 harg3 arg4 harg4 arg5 harg5 arg6 harg6 arg7 harg7 hc0 x0 x1 x2 x3 x4 = k0_pay1 x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg3.read_unread, harg4.read_unread, View.ld_unit_zero (S := S10000x256) hz,
    View.ld_unit_zero (S := S256x256) hz]

/-! ## What the output's staging buffer holds after the body, entry by entry -/

set_option maxHeartbeats 400000 in
/-- First point, rows 0–199: the first adjacency block against the feature product just stored. -/
theorem outA_lo (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i) (x0 : Vec F S200x10000 .f32) (x1 : Vec F S200x10000 .f32) (x2 : Vec F S10000x256 .f32) (x3 : Vec F S256x256 .f32) (x4 : Vec F S1x256 .f32) (r : Fin 200) (col : Fin 256) :
    out0_A_5 c i arg1 harg1 arg2 harg2 arg3 harg3 arg4 harg4 arg5 harg5 arg6 harg6 arg7 harg7 hc0 x0 x1 x2 x3 x4 (ix2 (⟨r.val, by have := r.isLt; omega⟩ : Fin 400) col)
      = k0_pay2 x0 (k0_pay1 x2 x3) x4 (ix2 r col) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  refine (canon_rows_lo _ _ _ _ [] r col).trans ?_
  simp only [View.readAt_eq_ld, harg1.read_unread, harg2.read_unread, harg3.read_unread, harg4.read_unread,
    harg5.read_unread, harg7.read_unread, View.readCov_unit_zero (S := S10000x256) _ hz,
    View.ld_unit_zero (S := S200x10000) hz, View.ld_unit_zero (S := S10000x256) hz, View.ld_unit_zero (S := S256x256) hz,
    View.ld_unit_zero (S := S1x256) hz]

set_option maxHeartbeats 400000 in
/-- First point, rows 200–399: the second adjacency block against the feature product just stored. -/
theorem outA_hi (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : cond0_0 i) (x0 : Vec F S200x10000 .f32) (x1 : Vec F S200x10000 .f32) (x2 : Vec F S10000x256 .f32) (x3 : Vec F S256x256 .f32) (x4 : Vec F S1x256 .f32) (r : Fin 200) (col : Fin 256) :
    out0_A_5 c i arg1 harg1 arg2 harg2 arg3 harg3 arg4 harg4 arg5 harg5 arg6 harg6 arg7 harg7 hc0 x0 x1 x2 x3 x4 (ix2 (⟨200 + r.val, by have := r.isLt; omega⟩ : Fin 400) col)
      = k0_pay3 x1 (k0_pay1 x2 x3) x4 (ix2 r col) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  refine (canon_rows_hi _ _ _ r col).trans ?_
  simp only [View.readAt_eq_ld, harg1.read_unread, harg2.read_unread, harg3.read_unread, harg4.read_unread,
    harg5.read_unread, harg7.read_unread, View.readCov_unit_zero (S := S10000x256) _ hz,
    View.ld_unit_zero (S := S200x10000) hz, View.ld_unit_zero (S := S10000x256) hz, View.ld_unit_zero (S := S256x256) hz,
    View.ld_unit_zero (S := S1x256) hz]

set_option maxHeartbeats 400000 in
/-- A later point, rows 0–199: the first adjacency block against what the scratch holds. -/
theorem outB_lo (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i) (x0 : Vec F S200x10000 .f32) (x1 : Vec F S200x10000 .f32) (x2 : Vec F S10000x256 .f32) (x3 : Vec F S256x256 .f32) (x4 : Vec F S1x256 .f32) (xs0 : Vec F S10000x256 .f32) (r : Fin 200) (col : Fin 256) :
    out0_B_5 c i arg1 harg1 arg2 harg2 arg3 harg3 arg4 harg4 arg5 harg5 arg6 harg6 arg7 harg7 hc0 x0 x1 x2 x3 x4 xs0 (ix2 (⟨r.val, by have := r.isLt; omega⟩ : Fin 400) col)
      = k0_pay2 x0 xs0 x4 (ix2 r col) := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  refine (canon_rows_lo _ _ _ _ [] r col).trans ?_
  simp only [View.readAt_eq_ld, harg1.read_unread, harg2.read_unread, harg3.read_unread, harg4.read_unread,
    harg5.read_unread, harg7.read_unread, View.readCov_unit_zero (S := S10000x256) _ hz,
    View.ld_unit_zero (S := S200x10000) hz, View.ld_unit_zero (S := S10000x256) hz, View.ld_unit_zero (S := S256x256) hz,
    View.ld_unit_zero (S := S1x256) hz]

set_option maxHeartbeats 400000 in
/-- A later point, rows 200–399: the second adjacency block against what the scratch holds. -/
theorem outB_hi (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S400x256 .f32) (harg6 : arg6.IsWhole) (arg7 : Memref sig .tc .vmem S10000x256 .f32) (harg7 : arg7.IsWhole) (hc0 : ¬cond0_0 i) (x0 : Vec F S200x10000 .f32) (x1 : Vec F S200x10000 .f32) (x2 : Vec F S10000x256 .f32) (x3 : Vec F S256x256 .f32) (x4 : Vec F S1x256 .f32) (xs0 : Vec F S10000x256 .f32) (r : Fin 200) (col : Fin 256) :
    out0_B_5 c i arg1 harg1 arg2 harg2 arg3 harg3 arg4 harg4 arg5 harg5 arg6 harg6 arg7 harg7 hc0 x0 x1 x2 x3 x4 xs0 (ix2 (⟨200 + r.val, by have := r.isLt; omega⟩ : Fin 400) col)
      = k0_pay3 x1 xs0 x4 (ix2 r col) := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  refine (canon_rows_hi _ _ _ r col).trans ?_
  simp only [View.readAt_eq_ld, harg1.read_unread, harg2.read_unread, harg3.read_unread, harg4.read_unread,
    harg5.read_unread, harg7.read_unread, View.readCov_unit_zero (S := S10000x256) _ hz,
    View.ld_unit_zero (S := S200x10000) hz, View.ld_unit_zero (S := S10000x256) hz, View.ld_unit_zero (S := S256x256) hz,
    View.ld_unit_zero (S := S1x256) hz]

end Cert.KernelIdeal.FrPc

end
-- ==== Proof.GcnSpec.lean ====
/-
  One dense graph-convolution layer on the extended reals, entry by entry:
  out[r, c] = max( Σₖ adj[r, k] · (Σⱼ x[k, j] · W[j, c]) + b[c], 0 ).
  The inner sum is the feature product x·W ("support"); the outer one contracts a row of the adjacency matrix
  against a column of the support. Both programs compute the support first and the product with the adjacency
  second, so the two sums are nested the same way on both sides and no sum is ever re-associated or distributed:
  nothing here needs the inputs to be finite.
-/
import Idealize.ShloMosaic.PureOps.Ideal
import Idealize.ShloMosaic.Lib.ValueIdx

noncomputable section

namespace Cert.GcnSpec

open Idealize.ShloMosaic Idealize.ShloMosaic.ValueIdx

/-- Entry (r, c) of the feature product x·W: row r of x against column c of W. -/
def supportAt (x : (⟨2, ![10000, 256]⟩ : Shape).Idx → EReal) (W : (⟨2, ![256, 256]⟩ : Shape).Idx → EReal)
    (r : Fin 10000) (c : Fin 256) : EReal :=
  ∑ j : Fin 256, x (ix2 r j) * W (ix2 j c)

/-- One output entry from one row of the adjacency matrix, one column of the support and one bias entry:
    max(⟨row, column⟩ + bias, 0); the zero is kept as the f32 word both programs print. -/
def rowOut (arow scol : Fin 10000 → EReal) (bias : EReal) : EReal :=
  max ((∑ k : Fin 10000, arow k * scol k) + bias) (Ideal.ofBits .f32 0x00000000#32)

/-- The layer as one function of the four argument arrays. -/
def G (x : (⟨2, ![10000, 256]⟩ : Shape).Idx → EReal) (adj : (⟨2, ![10000, 10000]⟩ : Shape).Idx → EReal)
    (W : (⟨2, ![256, 256]⟩ : Shape).Idx → EReal) (b : (⟨1, ![256]⟩ : Shape).Idx → EReal) :
    (⟨2, ![10000, 256]⟩ : Shape).Idx → EReal := fun i =>
  rowOut (fun k => adj (ix2 (⟨(i 0).val, (i 0).isLt⟩ : Fin 10000) k))
    (fun k => supportAt x W k (⟨(i 1).val, (i 1).isLt⟩ : Fin 256))
    (b (ix1 (⟨(i 1).val, (i 1).isLt⟩ : Fin 256)))

/-- The layer at explicit coordinates. -/
theorem G_ix2 (x : (⟨2, ![10000, 256]⟩ : Shape).Idx → EReal) (adj : (⟨2, ![10000, 10000]⟩ : Shape).Idx → EReal)
    (W : (⟨2, ![256, 256]⟩ : Shape).Idx → EReal) (b : (⟨1, ![256]⟩ : Shape).Idx → EReal) (r : Fin 10000) (c : Fin 256) :
    G x adj W b (ix2 r c) = rowOut (fun k => adj (ix2 r k)) (fun k => supportAt x W k c) (b (ix1 c)) := rfl

end Cert.GcnSpec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.GcnPayload.lean ====
/-
  The three values the kernel stores, entry by entry, on the extended reals.
  The first is the feature product x·W: a matrix product into a zero accumulator, so its entry (r, c) is
  Σⱼ x[r, j] · W[j, c].  The other two are one block of output rows each: the product of 200 rows of the adjacency
  matrix with the stored feature product, again into a zero accumulator, plus the bias row repeated down the block,
  then the maximum with zero; entry (r, c) is max(Σₖ a[r, k] · s[k, c] + bias[0, c], 0).
  No sum is re-associated: each is taken in the nesting the kernel has it.
-/
import proofs.«176682_g12412455485612_cont_sun_m_998_20_alg».proof.Proof.Gen.KernelIdeal.Skeleton
import proofs.«176682_g12412455485612_cont_sun_m_998_20_alg».proof.Proof.GcnSpec
import proofs.«176682_g12412455485612_cont_sun_m_998_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnPayload

open Cert.KernelIdeal Idealize.ShloMosaic Idealize.SL.Sem Idealize.ShloMosaic.ValueIdx

/-! ## The two contractions: which operand entries an output entry reads outside the contracted axis -/

/-- In the feature product the left operand is read in the output's row. -/
theorem dotXW_lhs0 (j : S10000x256.Idx) (q : dot_S10000x256_S256x256_S10000x256_1_0_0_1_n_n.contr.Idx) :
    (dot_S10000x256_S256x256_S10000x256_1_0_0_1_n_n.lhsIdx j q 0).val = (j 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl

/-- In the feature product the right operand is read in the output's column. -/
theorem dotXW_rhs1 (j : S10000x256.Idx) (q : dot_S10000x256_S256x256_S10000x256_1_0_0_1_n_n.contr.Idx) :
    (dot_S10000x256_S256x256_S10000x256_1_0_0_1_n_n.rhsIdx j q 1).val = (j 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- In the product with the adjacency rows the left operand is read in the output's row. -/
theorem dotAS_lhs0 (j : S200x256.Idx) (q : dot_S200x10000_S10000x256_S200x256_1_0_0_1_n_n.contr.Idx) :
    (dot_S200x10000_S10000x256_S200x256_1_0_0_1_n_n.lhsIdx j q 0).val = (j 0).val := by
  unfold DotDims.lhsIdx
  rw [dif_neg (show ¬(0 : Fin S200x10000.rank) ∈ dot_S200x10000_S10000x256_S200x256_1_0_0_1_n_n.lhsBatch by decide),
    dif_pos (show (0 : Fin S200x10000.rank) ∈ dot_S200x10000_S10000x256_S200x256_1_0_0_1_n_n.lhsNonContracting by decide)]
  rfl

/-- In the product with the adjacency rows the right operand is read in the output's column. -/
theorem dotAS_rhs1 (j : S200x256.Idx) (q : dot_S200x10000_S10000x256_S200x256_1_0_0_1_n_n.contr.Idx) :
    (dot_S200x10000_S10000x256_S200x256_1_0_0_1_n_n.rhsIdx j q 1).val = (j 1).val := by
  unfold DotDims.rhsIdx
  rw [dif_neg (show ¬(1 : Fin S10000x256.rank) ∈ dot_S200x10000_S10000x256_S200x256_1_0_0_1_n_n.rhsBatch by decide),
    dif_pos (show (1 : Fin S10000x256.rank) ∈ dot_S200x10000_S10000x256_S200x256_1_0_0_1_n_n.rhsNonContracting by decide)]
  rfl

/-! ## The stored values at an entry -/

/-- The first stored value is the feature product: entry (r, c) is Σⱼ x[r, j] · W[j, c]. -/
theorem pay1_apply (x : Vec Ideal S10000x256 .f32) (W : Vec Ideal S256x256 .f32) (r : Fin 10000) (c : Fin 256) :
    Gen.k0_pay1 (F := Ideal) x W (ix2 r c) = Cert.GcnSpec.supportAt x W r c := by
  unfold Gen.k0_pay1 Cert.GcnSpec.supportAt
  rw [shapeCast_self]
  exact Cert.LibPlainDot.matmul_zero_apply dot_S10000x256_S256x256_S10000x256_1_0_0_1_n_n rfl rfl rfl rfl dotXW_lhs0 dotXW_rhs1 none x W r c

/-- The second stored value: entry (r, c) is max(Σₖ a[r, k] · s[k, c] + bias[0, c], 0). -/
theorem pay2_apply (a : Vec Ideal S200x10000 .f32) (s : Vec Ideal S10000x256 .f32) (bb : Vec Ideal S1x256 .f32)
    (r : Fin 200) (c : Fin 256) :
    Gen.k0_pay2 (F := Ideal) a s bb (ix2 r c)
      = Cert.GcnSpec.rowOut (fun k => a (ix2 r k)) (fun k => s (ix2 k c)) (bb (ix2 (0 : Fin 1) c)) := by
  unfold Gen.k0_pay2 Cert.GcnSpec.rowOut
  rw [maximumf_apply, addf_apply, broadcast_apply, broadcastTo_1b_ab_apply, shapeCast_self]
  exact congrArg (fun z : EReal => max (z + bb (ix2 (0 : Fin 1) c)) (Ideal.ofBits .f32 0x00000000#32))
    (Cert.LibPlainDot.matmul_zero_apply dot_S200x10000_S10000x256_S200x256_1_0_0_1_n_n rfl rfl rfl rfl dotAS_lhs0 dotAS_rhs1 none a s r c)

/-- The third stored value is the same function of its operands as the second. -/
theorem pay3_apply (a : Vec Ideal S200x10000 .f32) (s : Vec Ideal S10000x256 .f32) (bb : Vec Ideal S1x256 .f32)
    (r : Fin 200) (c : Fin 256) :
    Gen.k0_pay3 (F := Ideal) a s bb (ix2 r c)
      = Cert.GcnSpec.rowOut (fun k => a (ix2 r k)) (fun k => s (ix2 k c)) (bb (ix2 (0 : Fin 1) c)) := by
  unfold Gen.k0_pay3 Cert.GcnSpec.rowOut
  rw [maximumf_apply, addf_apply, broadcast_apply, broadcastTo_1b_ab_apply, shapeCast_self]
  exact congrArg (fun z : EReal => max (z + bb (ix2 (0 : Fin 1) c)) (Ideal.ofBits .f32 0x00000000#32))
    (Cert.LibPlainDot.matmul_zero_apply dot_S200x10000_S10000x256_S200x256_1_0_0_1_n_n rfl rfl rfl rfl dotAS_lhs0 dotAS_rhs1 none a s r c)

end Cert.KernelIdeal.GcnPayload

end
-- ==== Proof.GcnValue.lean ====
/-
  What the kernel's result array holds at the end of its run, at the exact values: the graph-convolution layer
  G of the four argument arrays.

  Grid point t writes rows 400·t … 400·t+399 of the result. Rows 0–199 of its block are the even slab 2t of the
  adjacency matrix (rows 400·t+r) against the scratch, plus the bias, clamped at zero; rows 200–399 the odd slab
  2t+1 (rows 400·t+200+r). The scratch holds x·W from the first point on — the first point computes it from the
  whole x and W blocks —, so every entry of every block is the layer's entry at its row and column. The 25 blocks
  tile the 10000 rows, so the array is G.
-/
import proofs.«176682_g12412455485612_cont_sun_m_998_20_alg».proof.Proof.FrameMain
import proofs.«176682_g12412455485612_cont_sun_m_998_20_alg».proof.Proof.GcnBlocks
import proofs.«176682_g12412455485612_cont_sun_m_998_20_alg».proof.Proof.GcnPieces
import proofs.«176682_g12412455485612_cont_sun_m_998_20_alg».proof.Proof.GcnPayload
import proofs.«176682_g12412455485612_cont_sun_m_998_20_alg».proof.Proof.GcnSpec

set_option maxRecDepth 16384

noncomputable section

namespace Cert.KernelIdeal.FrV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat Cfg Window)
open Cert.GcnSpec

variable (m : (ℓ : Loc nD τ sig) → Buf (Elt Ideal) ℓ)

/-- The four argument arrays of core `c` as launched, as plain functions of an index. -/
abbrev aX (c : Dev nD) : S10000x256.Idx → EReal := m ((c : Thread nD τ).loc main_arg0)
abbrev aAdj (c : Dev nD) : S10000x10000.Idx → EReal := m ((c : Thread nD τ).loc main_arg1)
abbrev aW (c : Dev nD) : S256x256.Idx → EReal := m ((c : Thread nD τ).loc main_arg2)
abbrev aB (c : Dev nD) : S256.Idx → EReal := m ((c : Thread nD τ).loc main_arg3)

/-- The layer of core `c`'s argument arrays. -/
def Gm (c : Dev nD) : S10000x256.Idx → EReal := G (aX m c) (aAdj m c) (aW m c) (aB m c)

/-- The product of the x block and the W block at any point is x·W: both blocks are the whole arrays. -/
theorem support_of_blocks (c : Dev nD) (t : Fin cfg0.N) (k : Fin 10000) (col : Fin 256) :
    k0_pay1 (F := Ideal) (iblk m c 2 t) (iblk m c 3 t) (ix2 k col) = supportAt (aX m c) (aW m c) k col := by
  rw [Cert.KernelIdeal.GcnPayload.pay1_apply]
  unfold supportAt
  refine Finset.sum_congr rfl fun j _ => ?_
  rw [Cert.KernelIdeal.FrBlk.iblk2_apply, Cert.KernelIdeal.FrBlk.iblk3_apply]

/-- From the first point on the scratch holds x·W. -/
theorem sc_apply (c : Dev nD) (k : Fin 10000) (col : Fin 256) :
    sc m c (ix2 k col) = supportAt (aX m c) (aW m c) k col := by
  unfold sc
  rw [Cert.KernelIdeal.FrPc.sout_A_eq]
  exact support_of_blocks m c t0 k col

/-- Rows 0–199 of point `t`'s block, for any scratch contents that are x·W: the layer at row 400·t + r. -/
theorem row_lo (c : Dev nD) (t : Fin cfg0.N) (s : Vec Ideal S10000x256 .f32)
    (hs : ∀ (k : Fin 10000) (col : Fin 256), s (ix2 k col) = supportAt (aX m c) (aW m c) k col)
    (r : Fin 200) (col : Fin 256) (hr : t.val * 400 + r.val < 10000) :
    k0_pay2 (F := Ideal) (iblk m c 0 t) s (iblk m c 4 t) (ix2 r col) = Gm m c (ix2 (⟨t.val * 400 + r.val, hr⟩ : Fin 10000) col) := by
  rw [Cert.KernelIdeal.GcnPayload.pay2_apply, Gm, G_ix2, Cert.KernelIdeal.FrBlk.iblk4_apply]
  have ea : (fun k : Fin 10000 => (iblk m c 0 t : Vec Ideal S200x10000 .f32) (ix2 r k))
      = fun k => aAdj m c (ix2 (⟨t.val * 400 + r.val, hr⟩ : Fin 10000) k) := funext fun k => by
    rw [Cert.KernelIdeal.FrBlk.iblk0_apply]
    exact congrArg (fun q : Fin 10000 => aAdj m c (ix2 q k)) (Fin.ext (by show 2 * t.val * 200 + r.val = t.val * 400 + r.val; omega))
  have es : (fun k : Fin 10000 => s (ix2 k col)) = fun k => supportAt (aX m c) (aW m c) k col := funext fun k => hs k col
  rw [ea, es]

/-- Rows 200–399 of point `t`'s block: the layer at row 400·t + 200 + r. -/
theorem row_hi (c : Dev nD) (t : Fin cfg0.N) (s : Vec Ideal S10000x256 .f32)
    (hs : ∀ (k : Fin 10000) (col : Fin 256), s (ix2 k col) = supportAt (aX m c) (aW m c) k col)
    (r : Fin 200) (col : Fin 256) (hr : t.val * 400 + (200 + r.val) < 10000) :
    k0_pay3 (F := Ideal) (iblk m c 1 t) s (iblk m c 4 t) (ix2 r col) = Gm m c (ix2 (⟨t.val * 400 + (200 + r.val), hr⟩ : Fin 10000) col) := by
  rw [Cert.KernelIdeal.GcnPayload.pay3_apply, Gm, G_ix2, Cert.KernelIdeal.FrBlk.iblk4_apply]
  have ea : (fun k : Fin 10000 => (iblk m c 1 t : Vec Ideal S200x10000 .f32) (ix2 r k))
      = fun k => aAdj m c (ix2 (⟨t.val * 400 + (200 + r.val), hr⟩ : Fin 10000) k) := funext fun k => by
    rw [Cert.KernelIdeal.FrBlk.iblk1_apply]
    exact congrArg (fun q : Fin 10000 => aAdj m c (ix2 q k)) (Fin.ext (by show (2 * t.val + 1) * 200 + r.val = t.val * 400 + (200 + r.val); omega))
  have es : (fun k : Fin 10000 => s (ix2 k col)) = fun k => supportAt (aX m c) (aW m c) k col := funext fun k => hs k col
  rw [ea, es]

/-- Rows 0–199 of what the output's staging buffer holds after point `t`. -/
theorem outAt0_lo (c : Dev nD) (t : Fin cfg0.N) (r : Fin 200) (y1 : Fin 256) (h4 : r.val < 400) (hr : t.val * 400 + r.val < 10000) :
    outAt0 m c t (ix2 (⟨r.val, h4⟩ : Fin 400) y1) = Gm m c (ix2 (⟨t.val * 400 + r.val, hr⟩ : Fin 10000) y1) := by
  by_cases h0 : t.val % 25 = 0
  · rw [outAt0_A m c t h0]
    refine (Cert.KernelIdeal.FrPc.outA_lo c _ _ _ _ _ _ _ _ _ _ _ _ _ _ _ _ _ _ _ _ _ r y1).trans ?_
    exact row_lo m c t _ (fun k col => support_of_blocks m c t k col) r y1 hr
  · rw [outAt0_B m c t h0]
    refine (Cert.KernelIdeal.FrPc.outB_lo c _ _ _ _ _ _ _ _ _ _ _ _ _ _ _ _ _ _ _ _ _ _ r y1).trans ?_
    exact row_lo m c t _ (fun k col => sc_apply m c k col) r y1 hr

/-- Rows 200–399 of it. -/
theorem outAt0_hi (c : Dev nD) (t : Fin cfg0.N) (r : Fin 200) (y1 : Fin 256) (h4 : 200 + r.val < 400) (hr : t.val * 400 + (200 + r.val) < 10000) :
    outAt0 m c t (ix2 (⟨200 + r.val, h4⟩ : Fin 400) y1) = Gm m c (ix2 (⟨t.val * 400 + (200 + r.val), hr⟩ : Fin 10000) y1) := by
  by_cases h0 : t.val % 25 = 0
  · rw [outAt0_A m c t h0]
    refine (Cert.KernelIdeal.FrPc.outA_hi c _ _ _ _ _ _ _ _ _ _ _ _ _ _ _ _ _ _ _ _ _ r y1).trans ?_
    exact row_hi m c t _ (fun k col => support_of_blocks m c t k col) r y1 hr
  · rw [outAt0_B m c t h0]
    refine (Cert.KernelIdeal.FrPc.outB_hi c _ _ _ _ _ _ _ _ _ _ _ _ _ _ _ _ _ _ _ _ _ _ r y1).trans ?_
    exact row_hi m c t _ (fun k col => sc_apply m c k col) r y1 hr

/-- What the output's staging buffer holds after point `t`, entry by entry: the layer at row 400·t + y0. -/
theorem outAt0_apply (c : Dev nD) (t : Fin cfg0.N) (y0 : Fin 400) (y1 : Fin 256) (hr : t.val * 400 + y0.val < 10000) :
    outAt0 m c t (ix2 y0 y1) = Gm m c (ix2 (⟨t.val * 400 + y0.val, hr⟩ : Fin 10000) y1) := by
  obtain ⟨v, hv⟩ := y0
  by_cases hy : v < 200
  · exact outAt0_lo m c t ⟨v, hy⟩ y1 hv hr
  · obtain ⟨q, rfl⟩ : ∃ q, v = 200 + q := ⟨v - 200, by omega⟩
    exact outAt0_hi m c t ⟨q, by omega⟩ y1 hv hr

/-- What point `t` writes back is block `t` of the layer. -/
theorem flushed_eq (c : Dev nD) (t : Fin cfg0.N) :
    (dats m 0 c).flushed 5 t = ((cfg0.win 5).blk t).view.read (Elt Ideal) (Gm m c) := by
  show (cfg0.win 5).cut (grid0.coords t) ((dats m 0 c).after 5 t) = _
  rw [after0_5]
  funext y
  obtain ⟨y0, y1, rfl⟩ : ∃ (y0 : Fin 400) (y1 : Fin 256), y = ix2 y0 y1 := ⟨y 0, y 1, eq_ix2 y⟩
  have ht := Cert.KernelIdeal.FrBlk.t_lt t
  have hr : t.val * 400 + y0.val < 10000 := by have := y0.isLt; omega
  refine Eq.trans ?_ (Cert.KernelIdeal.FrBlk.oblk5_apply (F := Ideal) t (Gm m c) y0 y1).symm
  exact outAt0_apply m c t y0 y1 hr

/-- The result array after the run is the layer of the argument arrays. -/
theorem final (c : Dev nD) : (dats m 0 c).arrAt 5 cfg0.N = Gm m c :=
  (dats m 0 c).arrAt_eq_of_cover 5 (Gm m c) (fun t _ => flushed_eq m c t) (Cert.KernelIdeal.FrBlk.cover5' c)

/-- The kernel's run at the exact values: it terminates without a fault, its result array ends at the layer of
    its argument arrays, and the argument arrays end as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v1) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 5).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.FrV

end
-- ==== Proof.GcnReference.lean ====
/-
  The reference computes the layer.  Its six operations are: the feature product x·W; the product of the
  adjacency matrix with it; the bias spread first to one row and then down every row; the sum of the two; and
  the maximum with a zero spread over the whole array.  Read at entry (r, c) these are
  max(Σₖ adj[r, k] · (Σⱼ x[k, j] · W[j, c]) + b[c], 0), with the sums nested as written: the layer's definition.
-/
import proofs.«176682_g12412455485612_cont_sun_m_998_20_alg».proof.Proof.Gen.ReferenceIdeal.Read
import proofs.«176682_g12412455485612_cont_sun_m_998_20_alg».proof.Proof.GcnSpec
import Idealize.ShloMosaic.Lib.ValueIdx
import Idealize.ShloMosaic.PureOps.Ideal.Laws

noncomputable section

namespace Cert.ReferenceIdeal.GcnRef

open Cert.ReferenceIdeal Idealize.ShloMosaic Idealize.ShloMosaic.ValueIdx Cert.GcnSpec

/-! ## The entries each operation reads, by coordinates -/

/-- The feature product at (k, c) reads x at (k, j). -/
theorem xw_lhs (k : Fin 10000) (c : Fin 256) (j : Fin 256) : Read.lidx_main_v0 (ix2 k c) j = ix2 k j :=
  funext fun a => match a with | ⟨0, _⟩ => rfl | ⟨1, _⟩ => rfl

/-- The feature product at (k, c) reads W at (j, c). -/
theorem xw_rhs (k : Fin 10000) (c : Fin 256) (j : Fin 256) : Read.ridx_main_v0 (ix2 k c) j = ix2 j c :=
  funext fun a => match a with | ⟨0, _⟩ => rfl | ⟨1, _⟩ => rfl

/-- The product with the adjacency matrix at (r, c) reads the adjacency matrix at (r, k). -/
theorem adj_lhs (r : Fin 10000) (c : Fin 256) (k : Fin 10000) : Read.lidx_main_v1 (ix2 r c) k = ix2 r k :=
  funext fun a => match a with | ⟨0, _⟩ => rfl | ⟨1, _⟩ => rfl

/-- The product with the adjacency matrix at (r, c) reads the feature product at (k, c). -/
theorem adj_rhs (r : Fin 10000) (c : Fin 256) (k : Fin 10000) : Read.ridx_main_v1 (ix2 r c) k = ix2 k c :=
  funext fun a => match a with | ⟨0, _⟩ => rfl | ⟨1, _⟩ => rfl

/-- The bias spread over the array reads, at (r, c), the bias at c. -/
theorem bias_idx (r : Fin 10000) (c : Fin 256) : Read.idx_main_v2 (Read.idx_main_v3 (ix2 r c)) = ix1 c :=
  funext fun a => match a with | ⟨0, _⟩ => rfl

/-! ## The reference's feature product, then the whole layer -/

/-- The reference's first operation at (k, c) is the feature product's entry. -/
theorem ref_support (x : (⟨S10000x256, .f32⟩ : BufTy).Contents (Elt Ideal)) (W : (⟨S256x256, .f32⟩ : BufTy).Contents (Elt Ideal))
    (k : Fin 10000) (c : Fin 256) :
    Read.val_main_v0 (F := Ideal) x W (ix2 k c) = supportAt x W k c := by
  rw [Read.val_main_v0_apply]
  unfold supportAt
  exact Finset.sum_congr rfl fun j _ => by rw [xw_lhs, xw_rhs]

/-- The reference's result is the layer. -/
theorem ref_is_G (x : (⟨S10000x256, .f32⟩ : BufTy).Contents (Elt Ideal)) (adj : (⟨S10000x10000, .f32⟩ : BufTy).Contents (Elt Ideal))
    (W : (⟨S256x256, .f32⟩ : BufTy).Contents (Elt Ideal)) (b : (⟨S256, .f32⟩ : BufTy).Contents (Elt Ideal)) :
    Cert.ReferenceIdeal.Read.val_main_v5 (F := Ideal) x adj W b = Cert.GcnSpec.G x adj W b := by
  funext i
  obtain ⟨r, c, rfl⟩ : ∃ (r : Fin 10000) (c : Fin 256), i = ix2 r c := ⟨i 0, i 1, eq_ix2 i⟩
  rw [G_ix2, Read.val_main_v5_apply, Read.val_main_v4_apply, Read.val_main_v1_apply, Read.val_main_v3_apply,
    Read.val_main_v2_apply, Read.val_main_call0_v0_apply, Read.val_main_call0_cst_apply, bias_idx]
  have hsum : (∑ k : Fin 10000, adj (Read.lidx_main_v1 (ix2 r c) k)
        * Read.val_main_v0 (F := Ideal) x W (Read.ridx_main_v1 (ix2 r c) k))
      = ∑ k : Fin 10000, adj (ix2 r k) * supportAt x W k c :=
    Finset.sum_congr rfl fun k _ => by rw [adj_lhs, adj_rhs, ref_support]
  rw [hsum]
  rfl

end Cert.ReferenceIdeal.GcnRef

end
-- ==== Proof.lean ====
/-
  The certificate of one dense graph-convolution layer, out = max(adj · (x · W) + b, 0), computed by a pipelined
  kernel against its plain reference.

  The kernel walks 25 grid points. At the first it multiplies the whole x by the whole W into a scratch buffer
  that it keeps for the rest of the run; at every point it takes two consecutive 200-row slabs of the adjacency
  matrix (the matrix is handed to it twice, once for the even slabs and once for the odd ones), multiplies each by
  the scratch, adds the bias row and clamps at zero, and writes the 400 rows so obtained to the result. The
  reference computes x·W, then adj·(x·W), adds the bias and clamps. On the exact values a matrix product is the
  plain sum over the contracted index, so entry (r, c) of both results is
      max( Σₖ adj[r,k] · (Σⱼ x[k,j] · W[j,c]) + b[c], 0 ),
  the two sums nested the same way on both sides: nothing is re-associated, so the inputs' finiteness is not used.

  The three frames: each program runs to the end without a fault and leaves its argument arrays as launched —
  for the kernel (at the word level and at the exact values) by running its body at the first point and at a
  later point and threading the scratch through the 25 points, the shared adjacency array split in two halves
  between its two windows; for the reference by its run read back. The idealization rewrote nothing, so there is
  nothing to preserve.
-/
import proofs.«176682_g12412455485612_cont_sun_m_998_20_alg».proof.Defs
import proofs.«176682_g12412455485612_cont_sun_m_998_20_alg».proof.Proof.Gen.Kernel
import proofs.«176682_g12412455485612_cont_sun_m_998_20_alg».proof.Proof.Gen.KernelIdeal
import proofs.«176682_g12412455485612_cont_sun_m_998_20_alg».proof.Proof.Gen.ReferenceIdeal
import proofs.«176682_g12412455485612_cont_sun_m_998_20_alg».proof.Proof.Gen.Pre_finite_inputs
import proofs.«176682_g12412455485612_cont_sun_m_998_20_alg».proof.Proof.Gen.ReferenceIdeal.Run
import proofs.«176682_g12412455485612_cont_sun_m_998_20_alg».proof.Proof.Gen.ReferenceIdeal.Read
import proofs.«176682_g12412455485612_cont_sun_m_998_20_alg».proof.Proof.FrameMainK
import proofs.«176682_g12412455485612_cont_sun_m_998_20_alg».proof.Proof.GcnValue
import proofs.«176682_g12412455485612_cont_sun_m_998_20_alg».proof.Proof.GcnReference
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the layer of those arguments in their
    result arrays: the kernel's by its blocks, the reference's by its operations read at an index. -/
theorem algebraic : Cert.algebraic_KernelIdeal_ReferenceIdeal := by
  intro m ρ m' ρ' _ hagree
  refine ⟨fun c => Cert.KernelIdeal.FrV.Gm m c, Cert.KernelIdeal.FrV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.GcnRef.ref_is_G,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
